-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x1 .f32) (main_arg11 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S1x1 : Shape := ⟨2, ![1, 1]⟩
abbrev S50000x1 : Shape := ⟨2, ![50000, 1]⟩
abbrev S5000x1 : Shape := ⟨2, ![5000, 1]⟩
abbrev S5000 : Shape := ⟨1, ![5000]⟩

abbrev nBuf : Space → Nat
  | .hbm => 58
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S50000x128, .bf16⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .bf16⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S128x128, .bf16⟩
  | .hbm, ⟨32, _⟩ => ⟨S128x128, .bf16⟩
  | .hbm, ⟨33, _⟩ => ⟨S1x128, .f32⟩
  | .hbm, ⟨34, _⟩ => ⟨S1x128, .f32⟩
  | .hbm, ⟨35, _⟩ => ⟨S50000x128, .f32⟩
  | .hbm, ⟨36, _⟩ => ⟨S50000x128, .bf16⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .bf16⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S128x128, .bf16⟩
  | .hbm, ⟨52, _⟩ => ⟨S128x128, .bf16⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x1, .f32⟩
  | .hbm, ⟨57, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .bf16⟩
  | .local _ .vmem, ⟨15, _⟩ => ⟨S1x128, .f32⟩
  | .local _ .vmem, ⟨16, _⟩ => ⟨S128x128, .bf16⟩
  | .local _ .vmem, ⟨17, _⟩ => ⟨S1x128, .f32⟩
  | .local _ .vmem, ⟨18, _⟩ => ⟨S1x128, .f32⟩
  | .local _ .vmem, ⟨19, _⟩ => ⟨S1x1, .f32⟩
  | .local _ .vmem, ⟨20, _⟩ => ⟨S5000x1, .f32⟩
  | .local _ .vmem, ⟨21, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_1 : Ref sig .tc := ⟨.hbm, 37, rfl⟩
abbrev main_v22 : Ref sig .tc := ⟨.hbm, 38, rfl⟩
abbrev main_v23 : Ref sig .tc := ⟨.hbm, 39, rfl⟩
abbrev main_c_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S128x1_S1x128 : S128x1.ShapeCasts S1x128
  shapeCasts_S1_S1x1 : S1.ShapeCasts S1x1
  reduces_S5000x128_S5000 : S5000x128.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x1.size a ≤ S50000x1.size a
  hwx1_8 : ∀ i : grid1.Coords, EltTy.bits .f32 = 32 ∨ (Rect.block (s := S50000x1) S5000x1.size (cc1_transform_8 i) (hinb1_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v39) S5000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x1 : Shape := ⟨2, ![50000, 1]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x1, .f32⟩
  | .hbm, ⟨73, _⟩ => ⟨S1x1, .f32⟩
  | .hbm, ⟨74, _⟩ => ⟨S50000x1, .f32⟩
  | .hbm, ⟨75, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call1_cst : Ref sig .tc := ⟨.hbm, 41, rfl⟩
abbrev main_call1_v0 : Ref sig .tc := ⟨.hbm, 42, rfl⟩
abbrev main_v24 : Ref sig .tc := ⟨.hbm, 43, rfl⟩
abbrev main_c_1 : Ref sig .tc := ⟨.hbm, 44, rfl⟩
abbrev main_v25 : Ref sig .tc := ⟨.hbm, 45, rfl⟩
abbrev main_v26 : Ref sig .tc := ⟨.hbm, 46, rfl⟩
abbrev main_c_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call2_cst : Ref sig .tc := ⟨.hbm, 62, rfl⟩
abbrev main_call2_v0 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call3_cst : Ref sig .tc := ⟨.hbm, 69, rfl⟩
abbrev main_call3_v0 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Spec.lean ====
/-
  The mathematics of a two-layer graph isomorphism network with a linear read-out, on the extended reals.

  A node's feature row `x` and the sum `a` of its in-neighbours' rows go through two dense units with a
  rectifier: `unit h W b j = max (∑ k, h k · W(k, j) + b j) 0`, so a layer is
  `mlpRow x a W₁ b₁ W₂ b₂ j = unit (unit (x + a) W₁ b₁) W₂ b₂ j`; the read-out of a row `h` is
  `∑ k, h k · w k + c`. A whole array is the row formula at every node (`layer`, `headOf`): row `p` of the
  result reads row `p` of the features and of the neighbour sums and nothing else, which is why a band of rows
  of the result is the same formula of the same band of rows of the operands.

  The network: `h⁰ = layer x (agg x)`, `out = headOf h⁰ (agg h⁰)`, for any neighbour-sum operator `agg`.
-/
import Idealize.ShloMosaic.Lib.ValueIdx
import Idealize.ShloMosaic.PureOps.Ideal.Laws

noncomputable section

namespace Cert.Gin

open Idealize.ShloMosaic Idealize.ShloMosaic.ValueIdx
open scoped BigOperators

/-- A matrix given by its entries, row and column. -/
def ofRows {n w : ℕ} (f : Fin n → Fin w → EReal) : (⟨2, ![n, w]⟩ : Shape).Idx → EReal := fun i => f (i 0) (i 1)

theorem ofRows_ix2 {n w : ℕ} (f : Fin n → Fin w → EReal) (p : Fin n) (q : Fin w) : ofRows f (ix2 p q) = f p q := rfl

/-- One dense unit with a rectifier, at output channel `j`: `max (∑ k, h k · W(k, j) + b j) 0`. -/
def unit (h : Fin 128 → EReal) (W : (⟨2, ![128, 128]⟩ : Shape).Idx → EReal) (b : Fin 128 → EReal) (j : Fin 128) : EReal :=
  max (∑ k : Fin 128, h k * W (ix2 k j) + b j) 0

/-- The two dense units of a layer on one node's row: the features `x` plus the neighbour sum `a`. -/
def mlpRow (x a : Fin 128 → EReal) (W₁ : (⟨2, ![128, 128]⟩ : Shape).Idx → EReal) (b₁ : Fin 128 → EReal)
    (W₂ : (⟨2, ![128, 128]⟩ : Shape).Idx → EReal) (b₂ : Fin 128 → EReal) (j : Fin 128) : EReal :=
  unit (fun k => unit (fun l => x l + a l) W₁ b₁ k) W₂ b₂ j

/-- The linear read-out of one row. -/
def headRow (h w : Fin 128 → EReal) (c : EReal) : EReal := ∑ k : Fin 128, h k * w k + c

/-- A layer on every node: row `p` of the result is `mlpRow` of row `p` of `X` and of `A`. -/
def layer {n : ℕ} (X A : (⟨2, ![n, 128]⟩ : Shape).Idx → EReal) (W₁ : (⟨2, ![128, 128]⟩ : Shape).Idx → EReal) (b₁ : Fin 128 → EReal)
    (W₂ : (⟨2, ![128, 128]⟩ : Shape).Idx → EReal) (b₂ : Fin 128 → EReal) : (⟨2, ![n, 128]⟩ : Shape).Idx → EReal :=
  ofRows fun p q => mlpRow (fun l => X (ix2 p l)) (fun l => A (ix2 p l)) W₁ b₁ W₂ b₂ q

/-- A layer followed by the read-out on every node, as a one-column matrix. -/
def headOf {n : ℕ} (X A : (⟨2, ![n, 128]⟩ : Shape).Idx → EReal) (W₁ : (⟨2, ![128, 128]⟩ : Shape).Idx → EReal) (b₁ : Fin 128 → EReal)
    (W₂ : (⟨2, ![128, 128]⟩ : Shape).Idx → EReal) (b₂ : Fin 128 → EReal) (w : Fin 128 → EReal) (c : EReal) :
    (⟨2, ![n, 1]⟩ : Shape).Idx → EReal :=
  ofRows fun p _ => headRow (fun k => mlpRow (fun l => X (ix2 p l)) (fun l => A (ix2 p l)) W₁ b₁ W₂ b₂ k) w c

theorem layer_ix2 {n : ℕ} (X A : (⟨2, ![n, 128]⟩ : Shape).Idx → EReal) (W₁ : (⟨2, ![128, 128]⟩ : Shape).Idx → EReal) (b₁ : Fin 128 → EReal)
    (W₂ : (⟨2, ![128, 128]⟩ : Shape).Idx → EReal) (b₂ : Fin 128 → EReal) (p : Fin n) (q : Fin 128) :
    layer X A W₁ b₁ W₂ b₂ (ix2 p q) = mlpRow (fun l => X (ix2 p l)) (fun l => A (ix2 p l)) W₁ b₁ W₂ b₂ q := rfl

theorem headOf_ix2 {n : ℕ} (X A : (⟨2, ![n, 128]⟩ : Shape).Idx → EReal) (W₁ : (⟨2, ![128, 128]⟩ : Shape).Idx → EReal) (b₁ : Fin 128 → EReal)
    (W₂ : (⟨2, ![128, 128]⟩ : Shape).Idx → EReal) (b₂ : Fin 128 → EReal) (w : Fin 128 → EReal) (c : EReal) (p : Fin n) (u : Fin 1) :
    headOf X A W₁ b₁ W₂ b₂ w c (ix2 p u)
      = headRow (fun k => mlpRow (fun l => X (ix2 p l)) (fun l => A (ix2 p l)) W₁ b₁ W₂ b₂ k) w c := rfl

/-- The whole network over a neighbour-sum operator `agg`: two layers, the second followed by the read-out. -/
def gin {n : ℕ} (agg : ((⟨2, ![n, 128]⟩ : Shape).Idx → EReal) → (⟨2, ![n, 128]⟩ : Shape).Idx → EReal)
    (x : (⟨2, ![n, 128]⟩ : Shape).Idx → EReal)
    (W₁ : (⟨2, ![128, 128]⟩ : Shape).Idx → EReal) (b₁ : Fin 128 → EReal) (W₂ : (⟨2, ![128, 128]⟩ : Shape).Idx → EReal) (b₂ : Fin 128 → EReal)
    (W₃ : (⟨2, ![128, 128]⟩ : Shape).Idx → EReal) (b₃ : Fin 128 → EReal) (W₄ : (⟨2, ![128, 128]⟩ : Shape).Idx → EReal) (b₄ : Fin 128 → EReal)
    (w : Fin 128 → EReal) (c : EReal) : (⟨2, ![n, 1]⟩ : Shape).Idx → EReal :=
  headOf (layer x (agg x) W₁ b₁ W₂ b₂) (agg (layer x (agg x) W₁ b₁ W₂ b₂)) W₃ b₃ W₄ b₄ w c

end Cert.Gin

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.LibHostStack.lean ====
/-
  Stacks of matrices on the host, read at an index by coordinates, for any extents.

  A rank-3 array [K, a, b] is a stack of K matrices. Three layout steps move between the stack and its matrices:
  cutting slab k out of the stack and dropping the unit axis ([K, a, b] → [1, a, b] → [a, b]) reads the stack at
  (k, n, d); laying a matrix out as a stack of one ([a, b] → [1, a, b]) reads the matrix at (n, d) whatever the unit
  coordinate; joining four stacks of one along the leading axis reads piece k. At the exact instance the host's
  matrix product of an M × K by a K × N operand is the textbook sum over the K products.
-/
import Idealize.ShloMosaic.Lib.ValueIdx
import Idealize.ShloMosaic.Lib.ValueLayout
import Idealize.ShloMosaic.Lib.Pipeline.Value
import Idealize.ShloMosaic.Lib.KernelVsHost
import proofs.«151504_j37744172597911_2_alg».proof.Proof.LibMatmul2d

noncomputable section

namespace Cert.LibHostStack

open Idealize.ShloMosaic Idealize.ShloMosaic.ValueIdx
open scoped BigOperators

variable {α : Type}

/-- Slab `k` of a stack, as a matrix: the slice of extent one at offset `k` along the leading axis, its unit axis
    dropped, reads at (n, d) the stack at (k, n, d). -/
theorem slab_apply {K a b : ℕ} (o : ℕ) (y : (⟨3, ![K, a, b]⟩ : Shape).Idx → α)
    (hs : (⟨3, ![K, a, b]⟩ : Shape).Slices ![o, 0, 0] ⟨3, ![1, a, b]⟩)
    (hc : (⟨3, ![1, a, b]⟩ : Shape).ShapeCasts ⟨2, ![a, b]⟩) (k : Fin K) (hk : k.val = o) (n : Fin a) (d : Fin b) :
    shapeCast ⟨2, ![a, b]⟩ (extractStridedSlice ⟨3, ![1, a, b]⟩ ![o, 0, 0] y hs) hc (ix2 n d) = y (ix3 k n d) := by
  refine (shapeCast_1ab_ab_apply _ hc n d).trans ?_
  refine extractStridedSlice_apply _ y hs _ _ fun ax => ?_
  match ax with
  | ⟨0, _⟩ => show k.val = o + 0; omega
  | ⟨1, _⟩ => show n.val = 0 + n.val; omega
  | ⟨2, _⟩ => show d.val = 0 + d.val; omega

/-- A matrix laid out as a stack of one reads, at (u, n, d), the matrix at (n, d). -/
theorem lift_apply {a b : ℕ} (z : (⟨2, ![a, b]⟩ : Shape).Idx → α)
    (h : (⟨2, ![a, b]⟩ : Shape).BroadcastsInDim ⟨3, ![1, a, b]⟩ (![1, 2] : Fin 2 → Fin 3)) (u : Fin 1) (n : Fin a) (d : Fin b) :
    broadcastInDim ⟨3, ![1, a, b]⟩ ![1, 2] h z (ix3 u n d) = z (ix2 n d) := by
  have hn := n.isLt
  have hd := d.isLt
  refine broadcastInDim_apply _ h z _ _ fun ax => ?_
  match ax with
  | ⟨0, _⟩ => show n.val = if a = 1 then 0 else n.val; split_ifs with h1 <;> omega
  | ⟨1, _⟩ => show d.val = if b = 1 then 0 else d.val; split_ifs with h1 <;> omega

/-- Four stacks of one joined along the leading axis read, at (k, n, d), piece `k` at (0, n, d). -/
theorem stack4_apply {a b : ℕ} (p0 p1 p2 p3 : (⟨3, ![1, a, b]⟩ : Shape).Idx → α)
    (h : Shape.Concatenates [(⟨3, ![1, a, b]⟩ : Shape), ⟨3, ![1, a, b]⟩, ⟨3, ![1, a, b]⟩, ⟨3, ![1, a, b]⟩] ⟨3, ![4, a, b]⟩ 0)
    (k : Fin 4) (n : Fin a) (d : Fin b) :
    concatenate ⟨3, ![4, a, b]⟩ 0 [⟨⟨3, ![1, a, b]⟩, p0⟩, ⟨⟨3, ![1, a, b]⟩, p1⟩, ⟨⟨3, ![1, a, b]⟩, p2⟩, ⟨⟨3, ![1, a, b]⟩, p3⟩] h (ix3 k n d)
      = (![p0, p1, p2, p3] k) (ix3 (0 : Fin 1) n d) :=
  concatenate_ofFn_unit_apply (t := ⟨3, ![4, a, b]⟩) (s₁ := ⟨3, ![1, a, b]⟩) (0 : Fin 3) (fun q : Fin 4 => ![p0, p1, p2, p3] q) h rfl rfl
    (ix3 k n d) k rfl (ix3 (0 : Fin 1) n d) (fun bx hb => by
      match bx with
      | ⟨0, _⟩ => exact absurd rfl hb
      | ⟨1, _⟩ => rfl
      | ⟨2, _⟩ => rfl)

/-- The host's product of an M × K by a K × N operand at the exact instance, at (i, j). -/
theorem dotGeneral_plain_apply {M K N : ℕ} {φ₁ φ₂ : FTy} (x : FVec Ideal ⟨2, ![M, K]⟩ φ₁) (y : FVec Ideal ⟨2, ![K, N]⟩ φ₂)
    (i : Fin M) (j : Fin N) :
    Host.dotGeneral (DotDims.plain M K N) none x y (ix2 i j) = ∑ k : Fin K, x (ix2 i k) * y (ix2 k j) := by
  rw [← matmul_zero_eq_dotGeneral]
  exact Cert.LibMatmul2d.matmul_plain_apply x y i j

end Cert.LibHostStack

end
-- ==== Proof.LibColumns.lean ====
/-
  Columns of a matrix, and a matrix assembled from columns, read at an index — for any extents and any element type.

  A column taken out of an `[a, n]` matrix as a one-column slice and flattened to a vector reads, at `i`, the matrix
  at `(i, column)`. A vector made a one-column matrix again (by a broadcast along a new trailing unit axis) reads the
  vector at the row. Twelve one-column matrices laid side by side read, at `(r, k)`, the `k`-th of them at row `r`.
  And a vector of per-column values laid as one row by a broadcast (`[b] → [1, b]`) and repeated down the rows by another
  (`[1, b] → [a, b]`) reads, at `(p, c)`, the vector at `c`.
-/
import Idealize.ShloMosaic.Lib.ValueLayout
import Idealize.ShloMosaic.Lib.Pipeline.Value

noncomputable section

namespace Cert.LibColumns

open Idealize.ShloMosaic Idealize.ShloMosaic.ValueIdx

variable {α : Type}

/-! ## One column in, one column out -/

/-- An `[a, 1]` array cast to `[a]` reads, at `i`, the operand's one column at row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `k` of an `[a, n]` matrix — the one-column slice at offset `o = k`, cast to a vector — reads, at `i`,
    the matrix at `(i, k)`. -/
theorem column_apply {a n : ℕ} (o : ℕ) (x : (⟨2, ![a, n]⟩ : Shape).Idx → α)
    (hs : (⟨2, ![a, n]⟩ : Shape).Slices ![0, o] ⟨2, ![a, 1]⟩) (hc : (⟨2, ![a, 1]⟩ : Shape).ShapeCasts ⟨1, ![a]⟩)
    (i : Fin a) (k : Fin n) (hk : k.val = o) :
    shapeCast ⟨1, ![a]⟩ (extractStridedSlice ⟨2, ![a, 1]⟩ ![0, o] x hs) hc (ix1 i) = x (ix2 i k) :=
  (shapeCast_a1_a_apply _ hc i).trans (slice2_axis1_apply o x hs i (0 : Fin 1) k (by show k.val = o + 0; omega))

/-- A vector `[a]` broadcast along a new trailing unit axis (`dims = [0]`) reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (i : Fin a) (u : Fin 1) : broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A row of per-column values over a matrix, the host's way -/

/-- A vector `[b]` laid as one row by a broadcast (`dims = [1]`) reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` repeated down `a` rows by a broadcast (`dims = [0, 1]`) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- Per-column values `x : [b]` laid as a row and repeated down the rows, both by broadcasts: `x c` everywhere in column `c`. -/
theorem perColumnHost_apply {a b : ℕ} (x : (⟨1, ![b]⟩ : Shape).Idx → α)
    (h₁ : (⟨1, ![b]⟩ : Shape).BroadcastsInDim ⟨2, ![1, b]⟩ (![1] : Fin 1 → Fin (⟨2, ![1, b]⟩ : Shape).rank))
    (h₂ : (⟨2, ![1, b]⟩ : Shape).BroadcastsInDim ⟨2, ![a, b]⟩ (![0, 1] : Fin 2 → Fin (⟨2, ![a, b]⟩ : Shape).rank))
    (p : Fin a) (c : Fin b) :
    broadcastInDim ⟨2, ![a, b]⟩ ![0, 1] h₂ (broadcastInDim ⟨2, ![1, b]⟩ ![1] h₁ x) (ix2 p c) = x (ix1 c) :=
  (broadcastInDim_1b_ab_apply _ h₂ p c).trans (broadcastInDim_b_1b_apply x h₁ 0 c)

/-! ## Twelve columns side by side -/

/-- Twelve one-column matrices concatenated along the column axis read, at `(r, k)`, the `k`-th of them at row `r`. -/
theorem stack12_apply {a : ℕ} (p0 p1 p2 p3 p4 p5 p6 p7 p8 p9 p10 p11 : (⟨2, ![a, 1]⟩ : Shape).Idx → α)
    (h : Shape.Concatenates [(⟨2, ![a, 1]⟩ : Shape), ⟨2, ![a, 1]⟩, ⟨2, ![a, 1]⟩, ⟨2, ![a, 1]⟩, ⟨2, ![a, 1]⟩, ⟨2, ![a, 1]⟩,
      ⟨2, ![a, 1]⟩, ⟨2, ![a, 1]⟩, ⟨2, ![a, 1]⟩, ⟨2, ![a, 1]⟩, ⟨2, ![a, 1]⟩, ⟨2, ![a, 1]⟩] ⟨2, ![a, 12]⟩ 1)
    (r : Fin a) (k : Fin 12) :
    concatenate ⟨2, ![a, 12]⟩ 1 [⟨⟨2, ![a, 1]⟩, p0⟩, ⟨⟨2, ![a, 1]⟩, p1⟩, ⟨⟨2, ![a, 1]⟩, p2⟩, ⟨⟨2, ![a, 1]⟩, p3⟩,
        ⟨⟨2, ![a, 1]⟩, p4⟩, ⟨⟨2, ![a, 1]⟩, p5⟩, ⟨⟨2, ![a, 1]⟩, p6⟩, ⟨⟨2, ![a, 1]⟩, p7⟩, ⟨⟨2, ![a, 1]⟩, p8⟩,
        ⟨⟨2, ![a, 1]⟩, p9⟩, ⟨⟨2, ![a, 1]⟩, p10⟩, ⟨⟨2, ![a, 1]⟩, p11⟩] h (ix2 r k)
      = (![p0, p1, p2, p3, p4, p5, p6, p7, p8, p9, p10, p11] : Fin 12 → (⟨2, ![a, 1]⟩ : Shape).Idx → α) k (ix2 r (0 : Fin 1)) := by
  refine concatenate_ofFn_unit_apply (t := ⟨2, ![a, 12]⟩) (s₁ := ⟨2, ![a, 1]⟩) (1 : Fin 2) (N := 12)
    (![p0, p1, p2, p3, p4, p5, p6, p7, p8, p9, p10, p11] : Fin 12 → (⟨2, ![a, 1]⟩ : Shape).Idx → α) h rfl rfl (ix2 r k) k rfl
    (ix2 r (0 : Fin 1)) fun b hb => ?_
  match b with
  | ⟨0, _⟩ => rfl
  | ⟨1, _⟩ => exact absurd rfl hb

/-- Twelve values listed, a function applied to the `k`-th of them: it is the `k`-th of the twelve results. -/
theorem vec12_map {β γ : Type} (g : β → γ) (a0 a1 a2 a3 a4 a5 a6 a7 a8 a9 a10 a11 : β)
    (m0 m1 m2 m3 m4 m5 m6 m7 m8 m9 m10 m11 : γ)
    (h0 : g a0 = m0) (h1 : g a1 = m1) (h2 : g a2 = m2) (h3 : g a3 = m3) (h4 : g a4 = m4) (h5 : g a5 = m5)
    (h6 : g a6 = m6) (h7 : g a7 = m7) (h8 : g a8 = m8) (h9 : g a9 = m9) (h10 : g a10 = m10) (h11 : g a11 = m11)
    (k : Fin 12) :
    g ((![a0, a1, a2, a3, a4, a5, a6, a7, a8, a9, a10, a11] : Fin 12 → β) k)
      = (![m0, m1, m2, m3, m4, m5, m6, m7, m8, m9, m10, m11] : Fin 12 → γ) k := by
  subst h0 h1 h2 h3 h4 h5 h6 h7 h8 h9 h10 h11
  fin_cases k <;> rfl

end Cert.LibColumns

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.LibDenseRelu.lean ====
/-
  A dense unit with a rectifier, and a linear read-out, read at an index at the exact instance, for any extents.

  * `vectorDense_apply`: the vector unit's `max (h · W into a zero accumulator + a one-row bias repeated down the rows) 0`
    at `(p, q)` is `max (∑ k, h(p, k) · W(k, q) + b(0, q)) 0`.
  * `hostDense_apply`: the host's `max (dot_general h W + a bias vector laid as a row and repeated down the rows) 0`
    at `(p, q)` is `max (∑ k, h(p, k) · W(k, q) + b q) 0`.
  * `vectorReadout_apply`: the vector unit's row sum of `H ⊙ (a one-row weight repeated down the rows)`, kept as a column,
    plus a 1×1 offset repeated down the rows, at `(p, u)` is `∑ k, H(p, k) · w(0, k) + c(0, 0)`.
  * `hostReadout_apply`: the host's `dot_general H W` against a one-column `W` plus a one-entry offset, at `(p, u)`, is
    `∑ k, H(p, k) · W(k, u) + c 0`.
-/
import Idealize.ShloMosaic.Lib.ValueIdx
import Idealize.ShloMosaic.Lib.ValueLayout
import Idealize.ShloMosaic.Lib.Pipeline.Value
import Idealize.ShloMosaic.PureOps.Ideal.Laws
import proofs.«151504_j37744172597911_2_alg».proof.Proof.LibMatmul2d
import proofs.«151504_j37744172597911_2_alg».proof.Proof.LibHostStack
import proofs.«151504_j37744172597911_2_alg».proof.Proof.LibColumns
import proofs.«151504_j37744172597911_2_alg».proof.Proof.LibRowwise

noncomputable section

namespace Cert.LibDenseRelu

open Idealize.ShloMosaic Idealize.ShloMosaic.ValueIdx
open scoped BigOperators

variable {n K N : ℕ}

/-- A dense unit with a rectifier on the vector unit, at `(p, q)`. -/
theorem vectorDense_apply {φ₁ φ₂ : FTy} (h : FVec Ideal ⟨2, ![n, K]⟩ φ₁) (W : FVec Ideal ⟨2, ![K, N]⟩ φ₂)
    (b : FVec Ideal ⟨2, ![1, N]⟩ .f32) (hb : (⟨2, ![1, N]⟩ : Shape).Broadcasts ⟨2, ![n, N]⟩) (p : Fin n) (q : Fin N) :
    maximumf (addf (matmul (DotDims.plain n K N) none h W (constant ⟨2, ![n, N]⟩ .f32 0x00000000#32)) (broadcastTo ⟨2, ![n, N]⟩ b hb))
        (broadcast ⟨2, ![n, N]⟩ (Scalar.ofBits .f32 0x00000000#32)) (ix2 p q)
      = max (∑ k : Fin K, h (ix2 p k) * W (ix2 k q) + b (ix2 (0 : Fin 1) q)) 0 := by
  have h1 := Cert.LibMatmul2d.matmul_plain_apply h W p q
  have h2 := broadcastTo_1b_ab_apply b hb p q
  show max (FloatOps.matmul (DotDims.plain n K N) none h W (constant ⟨2, ![n, N]⟩ .f32 0x00000000#32) (ix2 p q)
      + broadcastTo ⟨2, ![n, N]⟩ b hb (ix2 p q)) (Ideal.ofBits .f32 0x00000000#32) = _
  rw [h1, h2, Ideal.ofBits_zero_f32]

/-- A dense unit with a rectifier on the host, at `(p, q)`. -/
theorem hostDense_apply {φ₁ φ₂ : FTy} (h : FVec Ideal ⟨2, ![n, K]⟩ φ₁) (W : FVec Ideal ⟨2, ![K, N]⟩ φ₂)
    (b : FVec Ideal ⟨1, ![N]⟩ .f32)
    (h₁ : (⟨1, ![N]⟩ : Shape).BroadcastsInDim ⟨2, ![1, N]⟩ (![1] : Fin 1 → Fin (⟨2, ![1, N]⟩ : Shape).rank))
    (h₂ : (⟨2, ![1, N]⟩ : Shape).BroadcastsInDim ⟨2, ![n, N]⟩ (![0, 1] : Fin 2 → Fin (⟨2, ![n, N]⟩ : Shape).rank))
    (h₀ : (⟨0, ![]⟩ : Shape).BroadcastsInDim ⟨2, ![n, N]⟩ (![] : Fin 0 → Fin (⟨2, ![n, N]⟩ : Shape).rank))
    (p : Fin n) (q : Fin N) :
    maximumf (addf (Host.dotGeneral (DotDims.plain n K N) none h W)
          (broadcastInDim ⟨2, ![n, N]⟩ ![0, 1] h₂ (broadcastInDim ⟨2, ![1, N]⟩ ![1] h₁ b)))
        (broadcastInDim ⟨2, ![n, N]⟩ ![] h₀ (constant (F := Ideal) ⟨0, ![]⟩ .f32 0x00000000#32)) (ix2 p q)
      = max (∑ k : Fin K, h (ix2 p k) * W (ix2 k q) + b (ix1 q)) 0 := by
  have h1 := Cert.LibHostStack.dotGeneral_plain_apply h W p q
  have h2 := Cert.LibColumns.perColumnHost_apply (a := n) b h₁ h₂ p q
  have h3 : broadcastInDim ⟨2, ![n, N]⟩ ![] h₀ (constant (F := Ideal) ⟨0, ![]⟩ .f32 0x00000000#32) (ix2 p q) = 0 :=
    (broadcastInDim_apply _ h₀ _ (ix2 p q) (fun a => a.elim0) (fun a => a.elim0)).trans Ideal.ofBits_zero_f32
  show max (Host.dotGeneral (DotDims.plain n K N) none h W (ix2 p q)
      + broadcastInDim ⟨2, ![n, N]⟩ ![0, 1] h₂ (broadcastInDim ⟨2, ![1, N]⟩ ![1] h₁ b) (ix2 p q))
      (broadcastInDim ⟨2, ![n, N]⟩ ![] h₀ (constant (F := Ideal) ⟨0, ![]⟩ .f32 0x00000000#32) (ix2 p q)) = _
  rw [h1, h2, h3]

/-- The read-out on the vector unit, at `(p, u)`. -/
theorem vectorReadout_apply (H : FVec Ideal ⟨2, ![n, K]⟩ .f32) (w : FVec Ideal ⟨2, ![1, K]⟩ .f32) (c : FVec Ideal ⟨2, ![1, 1]⟩ .f32)
    (hw : (⟨2, ![1, K]⟩ : Shape).Broadcasts ⟨2, ![n, K]⟩) (hc : (⟨2, ![1, 1]⟩ : Shape).Broadcasts ⟨2, ![n, 1]⟩)
    (hr : (⟨2, ![n, K]⟩ : Shape).Reduces [1] ⟨1, ![n]⟩) (hφ : FKind.Formats FTy.f32)
    (hacc : (0x00000000#32 : BitVec FTy.f32.bits) = FKind.add.neutral .f32 hφ)
    (hs : (⟨1, ![n]⟩ : Shape).ShapeCasts ⟨2, ![n, 1]⟩) (p : Fin n) (u : Fin 1) :
    addf (shapeCast ⟨2, ![n, 1]⟩ (multiReduction .add [1] ⟨1, ![n]⟩ (mulf H (broadcastTo ⟨2, ![n, K]⟩ w hw)) 0x00000000#32 hr hφ hacc) hs)
        (broadcastTo ⟨2, ![n, 1]⟩ c hc) (ix2 p u)
      = ∑ k : Fin K, H (ix2 p k) * w (ix2 (0 : Fin 1) k) + c (ix2 (0 : Fin 1) (0 : Fin 1)) := by
  have h1 := Cert.LibRowwise.shapeCast_a_a1_apply
    (multiReduction .add [1] ⟨1, ![n]⟩ (mulf H (broadcastTo ⟨2, ![n, K]⟩ w hw)) 0x00000000#32 hr hφ hacc) hs p u
  have h2 := Cert.LibRowwise.rowSum_apply (mulf H (broadcastTo ⟨2, ![n, K]⟩ w hw)) 0x00000000#32 hr hφ hacc p
  have h3 := broadcastTo_1b_ab_apply c hc p u
  have hu : u = 0 := Subsingleton.elim _ _
  show shapeCast ⟨2, ![n, 1]⟩ (multiReduction .add [1] ⟨1, ![n]⟩ (mulf H (broadcastTo ⟨2, ![n, K]⟩ w hw)) 0x00000000#32 hr hφ hacc) hs (ix2 p u)
      + broadcastTo ⟨2, ![n, 1]⟩ c hc (ix2 p u) = _
  rw [h1, h2, h3, hu]
  refine congrArg (· + c (ix2 (0 : Fin 1) (0 : Fin 1))) (Finset.sum_congr rfl fun k _ => ?_)
  show H (ix2 p k) * broadcastTo ⟨2, ![n, K]⟩ w hw (ix2 p k) = _
  rw [broadcastTo_1b_ab_apply w hw p k]

/-- The read-out on the host, at `(p, u)`. -/
theorem hostReadout_apply (H : FVec Ideal ⟨2, ![n, K]⟩ .f32) (W : FVec Ideal ⟨2, ![K, 1]⟩ .f32) (c : FVec Ideal ⟨1, ![1]⟩ .f32)
    (h₁ : (⟨1, ![1]⟩ : Shape).BroadcastsInDim ⟨2, ![1, 1]⟩ (![1] : Fin 1 → Fin (⟨2, ![1, 1]⟩ : Shape).rank))
    (h₂ : (⟨2, ![1, 1]⟩ : Shape).BroadcastsInDim ⟨2, ![n, 1]⟩ (![0, 1] : Fin 2 → Fin (⟨2, ![n, 1]⟩ : Shape).rank))
    (p : Fin n) (u : Fin 1) :
    addf (Host.dotGeneral (DotDims.plain n K 1) none H W)
        (broadcastInDim ⟨2, ![n, 1]⟩ ![0, 1] h₂ (broadcastInDim ⟨2, ![1, 1]⟩ ![1] h₁ c)) (ix2 p u)
      = ∑ k : Fin K, H (ix2 p k) * W (ix2 k u) + c (ix1 (0 : Fin 1)) := by
  have h1 := Cert.LibHostStack.dotGeneral_plain_apply H W p u
  have h2 := Cert.LibColumns.perColumnHost_apply (a := n) c h₁ h₂ p u
  have hu : u = 0 := Subsingleton.elim _ _
  show Host.dotGeneral (DotDims.plain n K 1) none H W (ix2 p u)
      + broadcastInDim ⟨2, ![n, 1]⟩ ![0, 1] h₂ (broadcastInDim ⟨2, ![1, 1]⟩ ![1] h₁ c) (ix2 p u) = _
  rw [h1, h2, hu]

end Cert.LibDenseRelu

end
-- ==== Proof.Layer0.lean ====
/-
  The first layer's kernel: what its output array holds after all ten grid points, at any contents `V` the
  region is entered with.

  Point `t` stages rows `5000·t … 5000·t + 4999` of the feature array and of the neighbour sums, and the two weight
  matrices and the two one-row biases whole; its body leaves `mlpRow` of each staged row in the matching row of the
  output block (`body_at`). Row `p` of block `t` is row `5000·t + p` of the arrays (the block reads inside `flushed_eq`), a layer's row reads only
  that row of its operands, so the block written back is the band of rows `5000·t …` of `Gin.layer` of the whole
  arrays (`flushed_eq`); the ten bands cover the array (`covered`), hence the array is `Gin.layer` (`array_eq`).
-/
import proofs.«151504_j37744172597911_2_alg».proof.Proof.Gen.KernelIdeal.Frame
import proofs.«151504_j37744172597911_2_alg».proof.Proof.Spec
import proofs.«151504_j37744172597911_2_alg».proof.Proof.LibDenseRelu
import Idealize.ShloMosaic.Lib.Pipeline.Value
import Idealize.ShloMosaic.Lib.ValueIdx
import Idealize.ShloMosaic.Lib.ValueLayout

set_option maxRecDepth 16384

noncomputable section

namespace Cert.KernelIdeal.Layer0

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

theorem hz : (![0, 0] : Fin 2 → Nat) = fun _ => 0 := funext fun a => by fin_cases a <;> rfl

/-- The two dense units of a layer as the vector unit computes them on a block of 5000 rows: both matrix products into a
    zero accumulator, each followed by the bias row repeated down the rows and the rectifier; the roundings to the narrow
    format on the way into each product are the identity on the extended reals. -/
def twoDense (x0 x1 : FVec Ideal S5000x128 .f32) (x2 : FVec Ideal S128x128 .bf16) (x3 : FVec Ideal S1x128 .f32)
    (x4 : FVec Ideal S128x128 .bf16) (x5 : FVec Ideal S1x128 .f32) : FVec Ideal S5000x128 .f32 :=
  maximumf (addf (matmul dot_S5000x128_S128x128_S5000x128_1_0_0_1_n_n none
      (truncf FTy.bf16 (maximumf (addf (matmul dot_S5000x128_S128x128_S5000x128_1_0_0_1_n_n none (truncf FTy.bf16 (addf x0 x1) bitsLt_bf16_f32)
        x2 (constant S5000x128 FTy.f32 0#32)) (broadcastTo S5000x128 x3 broadcasts_S1x128_S5000x128))
        (broadcast S5000x128 (FloatOps.ofBits FTy.f32 0#32))) bitsLt_bf16_f32)
      x4 (constant S5000x128 FTy.f32 0#32)) (broadcastTo S5000x128 x5 broadcasts_S1x128_S5000x128))
    (broadcast S5000x128 (FloatOps.ofBits FTy.f32 0#32))

/-- The two dense units at row `p`, channel `q`: the layer's formula of row `p` of the two blocks. -/
theorem twoDense_at (x0 x1 : FVec Ideal S5000x128 .f32) (x2 : FVec Ideal S128x128 .bf16) (x3 : FVec Ideal S1x128 .f32)
    (x4 : FVec Ideal S128x128 .bf16) (x5 : FVec Ideal S1x128 .f32) (p : Fin 5000) (q : Fin 128) :
    twoDense x0 x1 x2 x3 x4 x5 (ix2 p q)
      = Cert.Gin.mlpRow (fun l => x0 (ix2 p l)) (fun l => x1 (ix2 p l)) x2 (fun k => x3 (ix2 (0 : Fin 1) k)) x4
          (fun k => x5 (ix2 (0 : Fin 1) k)) q := by
  unfold twoDense
  refine (Cert.LibDenseRelu.vectorDense_apply (n := 5000) (K := 128) (N := 128) (φ₁ := .bf16) (φ₂ := .bf16)
    (truncf FTy.bf16 (maximumf (addf (matmul dot_S5000x128_S128x128_S5000x128_1_0_0_1_n_n none (truncf FTy.bf16 (addf x0 x1) bitsLt_bf16_f32)
      x2 (constant S5000x128 FTy.f32 0#32)) (broadcastTo S5000x128 x3 broadcasts_S1x128_S5000x128))
      (broadcast S5000x128 (FloatOps.ofBits FTy.f32 0#32))) bitsLt_bf16_f32) x4 x5 broadcasts_S1x128_S5000x128 p q).trans ?_
  unfold Cert.Gin.mlpRow
  refine congrArg (fun h => Cert.Gin.unit h x4 (fun k => x5 (ix2 (0 : Fin 1) k)) q) (funext fun k => ?_)
  exact Cert.LibDenseRelu.vectorDense_apply (n := 5000) (K := 128) (N := 128) (φ₁ := .bf16) (φ₂ := .bf16) (truncf FTy.bf16 (addf x0 x1) bitsLt_bf16_f32) x2 x3
    broadcasts_S1x128_S5000x128 p k

/-- The body's result at row `p`, channel `q` of the block: the layer's formula of row `p` of the two staged blocks. -/
theorem body_at (x0 x1 : Vec Ideal S5000x128 .f32) (x2 : Vec Ideal S128x128 .bf16) (x3 : Vec Ideal S1x128 .f32)
    (x4 : Vec Ideal S128x128 .bf16) (x5 : Vec Ideal S1x128 .f32) (p : Fin 5000) (q : Fin 128) :
    out0_6 (F := Ideal) x0 x1 x2 x3 x4 x5 (ix2 p q)
      = Cert.Gin.mlpRow (fun l => x0 (ix2 p l)) (fun l => x1 (ix2 p l)) x2 (fun k => x3 (ix2 (0 : Fin 1) k)) x4
          (fun k => x5 (ix2 (0 : Fin 1) k)) q := by
  unfold out0_6
  rw [View.canon_unit_zero hz]
  simp only [View.ld_unit_zero (S := S5000x128) hz, View.ld_unit_zero (S := S128x128) hz, View.ld_unit_zero (S := S1x128) hz]
  unfold k0_pay1
  simp only [shapeCast_self]
  exact twoDense_at x0 x1 x2 x3 x4 x5 p q

/-- The index maps over the ten points: the two row-banded operands and the output sit at block `(t, 0)`, the two
    weight matrices and the two bias rows at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- One entry of a written-back block: if row `j 0` of the two staged blocks is row `i 0` of the arrays `A0`, `A1`, the four
    other staged operands are the arrays `A2 … A5` whole, and `i`, `j` name the same channel, then the body's result at `j`
    is the layer of the arrays at `i`. -/
theorem point (A0 A1 : S50000x128.Idx → EReal) (A2 A4 : S128x128.Idx → EReal) (A3 A5 : S1x128.Idx → EReal)
    (B0 B1 : Vec Ideal S5000x128 .f32) (B2 B4 : Vec Ideal S128x128 .bf16) (B3 B5 : Vec Ideal S1x128 .f32)
    (j : S5000x128.Idx) (i : S50000x128.Idx) (hi : (i 1).val = (j 1).val)
    (h0 : ∀ l : Fin 128, B0 (ix2 (j 0) l) = A0 (ix2 (i 0) l))
    (h1 : ∀ l : Fin 128, B1 (ix2 (j 0) l) = A1 (ix2 (i 0) l))
    (h2 : ∀ y, B2 y = A2 y) (h3 : ∀ y, B3 y = A3 y) (h4 : ∀ y, B4 y = A4 y) (h5 : ∀ y, B5 y = A5 y) :
    out0_6 (F := Ideal) B0 B1 B2 B3 B4 B5 j
      = Cert.Gin.layer A0 A1 A2 (fun k => A3 (ix2 (0 : Fin 1) k)) A4 (fun k => A5 (ix2 (0 : Fin 1) k)) i := by
  obtain rfl : B2 = A2 := funext h2
  obtain rfl : B3 = A3 := funext h3
  obtain rfl : B4 = A4 := funext h4
  obtain rfl : B5 = A5 := funext h5
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext hi
  have h0' : (fun l : Fin 128 => B0 (ix2 p l)) = fun l => A0 (ix2 r l) := funext h0
  have h1' : (fun l : Fin 128 => B1 (ix2 p l)) = fun l => A1 (ix2 r l) := funext h1
  rw [body_at, Cert.Gin.layer_ix2, h0', h1']

variable (V : (c : Dev nD) → (b : Ref sig .tc) → Buf (Elt Ideal) ((c : Thread nD τ).loc b))

/-- What point `t` writes back is the band of rows `5000·t …` of the layer of the arrays as the region finds them. -/
theorem flushed_eq (c : Dev nD) (t : Fin cfg0.N) :
    (dat0 V c).flushed 6 t = ((cfg0.win 6).blk t).view.read (Elt Ideal)
      (Cert.Gin.layer (n := 50000) (V c main_arg0) (V c main_v15) (V c main_v16) (fun k => V c main_v18 (ix2 (0 : Fin 1) k))
        (V c main_v17) (fun k => V c main_v19 (ix2 (0 : Fin 1) k))) := by
  show (cfg0.win 6).cut (grid0.coords t) ((dat0 V c).after 6 t) = _
  rw [after0_6]
  obtain ⟨e00, e01, e10, e11, e20, e21, e30, e31, e40, e41, e50, e51, e60, e61⟩ := idx_facts t
  funext j
  refine point (V c main_arg0) (V c main_v15) (V c main_v16) (V c main_v17) (V c main_v18) (V c main_v19)
    (iblk0 V c 0 t) (iblk0 V c 1 t) (iblk0 V c 2 t) (iblk0 V c 4 t) (iblk0 V c 3 t) (iblk0 V c 5 t)
    j (((cfg0.win 6).blk t).view.emb j) ?_ ?_ ?_ ?_ ?_ ?_ ?_
  · show win0_6.index t (1 : Fin 2) * 128 + 1 * (j 1).val = (j 1).val
    omega
  · intro l
    show V c main_arg0 (((cfg0.win 0).blk t).view.emb (ix2 (j 0) l)) = V c main_arg0 (ix2 ((((cfg0.win 6).blk t).view.emb j) 0) l)
    refine congrArg (V c main_arg0) (funext fun a => Fin.ext ?_)
    match a with
    | ⟨0, _⟩ => show win0_0.index t (0 : Fin 2) * 5000 + 1 * (j 0).val = win0_6.index t (0 : Fin 2) * 5000 + 1 * (j 0).val; omega
    | ⟨1, _⟩ => show win0_0.index t (1 : Fin 2) * 128 + 1 * l.val = l.val; omega
  · intro l
    show V c main_v15 (((cfg0.win 1).blk t).view.emb (ix2 (j 0) l)) = V c main_v15 (ix2 ((((cfg0.win 6).blk t).view.emb j) 0) l)
    refine congrArg (V c main_v15) (funext fun a => Fin.ext ?_)
    match a with
    | ⟨0, _⟩ => show win0_1.index t (0 : Fin 2) * 5000 + 1 * (j 0).val = win0_6.index t (0 : Fin 2) * 5000 + 1 * (j 0).val; omega
    | ⟨1, _⟩ => show win0_1.index t (1 : Fin 2) * 128 + 1 * l.val = l.val; omega
  · intro y
    show V c main_v16 (((cfg0.win 2).blk t).view.emb y) = V c main_v16 y
    refine congrArg (V c main_v16) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · intro y
    show V c main_v18 (((cfg0.win 3).blk t).view.emb y) = V c main_v18 y
    refine congrArg (V c main_v18) (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  · intro y
    show V c main_v17 (((cfg0.win 4).blk t).view.emb y) = V c main_v17 y
    refine congrArg (V c main_v17) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · intro y
    show V c main_v19 (((cfg0.win 5).blk t).view.emb y) = V c main_v19 y
    refine congrArg (V c main_v19) (funext fun a => Fin.ext ?_)
    match a with
    | ⟨0, _⟩ => show win0_5.index t (0 : Fin 2) * 1 + 1 * (y 0).val = (y 0).val; omega
    | ⟨1, _⟩ => show win0_5.index t (1 : Fin 2) * 128 + 1 * (y 1).val = (y 1).val; omega

/-- An index of the output array is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v20).slice (win0_6.rect t)).set ↔ _
  rw [View.set_slice_whole, Rect.mem_set_unit]
  exact Iff.rfl

/-- Every row of the output array lies in the band of the point `row / 5000`. -/
theorem covered (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : grid0.N = 10 := N_0
  have ht : (i 0).val / 5000 < cfg0.N := by show (i 0).val / 5000 < grid0.N; omega
  obtain ⟨e00, e01, e10, e11, e20, e21, e30, e31, e40, e41, e50, e51, e60, e61⟩ := idx_facts ⟨(i 0).val / 5000, ht⟩
  refine ⟨⟨(i 0).val / 5000, ht⟩, flush0_6 _, ?_⟩
  rw [mem_blk]
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    have e : win0_6.index ⟨(i 0).val / 5000, ht⟩ (0 : Fin 2) = (i 0).val / 5000 := e60
    omega
  | ⟨1, _⟩ =>
    show win0_6.index ⟨(i 0).val / 5000, ht⟩ (1 : Fin 2) * 128 ≤ (i 1).val
      ∧ (i 1).val < win0_6.index ⟨(i 0).val / 5000, ht⟩ (1 : Fin 2) * 128 + 128
    omega

/-- The first layer's output array after the region: the layer of the arrays the region was entered with. -/
theorem array_eq (c : Dev nD) :
    (dat0 V c).arrAt 6 cfg0.N
      = Cert.Gin.layer (n := 50000) (V c main_arg0) (V c main_v15) (V c main_v16) (fun k => V c main_v18 (ix2 (0 : Fin 1) k))
          (V c main_v17) (fun k => V c main_v19 (ix2 (0 : Fin 1) k)) :=
  (dat0 V c).arrAt_eq_of_cover 6 _ (fun t _ => flushed_eq V c t) covered

end Cert.KernelIdeal.Layer0

end
-- ==== Proof.Layer1.lean ====
/-
  The second layer's kernel with the read-out: what its one-column output array holds after all ten grid points, at any
  contents `V` the region is entered with.

  Point `t` stages rows `5000·t …` of the first layer's result and of its neighbour sums, and the weights, the bias rows,
  the read-out's weight row and its 1×1 offset whole; its body leaves in row `p` of the output block the read-out of the
  layer's formula of the staged row `p` (`body_at`: the row sum of the products with the weight row, plus the offset).
  As for the first layer, a band of rows of the result depends on the same band of the operands, the ten bands cover the
  array, and the array is `Gin.headOf` of the arrays the region found (`array_eq`).
-/
import proofs.«151504_j37744172597911_2_alg».proof.Proof.Gen.KernelIdeal.Frame
import proofs.«151504_j37744172597911_2_alg».proof.Proof.Spec
import proofs.«151504_j37744172597911_2_alg».proof.Proof.LibDenseRelu
import Idealize.ShloMosaic.Lib.Pipeline.Value
import Idealize.ShloMosaic.Lib.ValueIdx
import Idealize.ShloMosaic.Lib.ValueLayout
import proofs.«151504_j37744172597911_2_alg».proof.Proof.Layer0

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.KernelIdeal.Layer0 (hz twoDense twoDense_at)
open scoped BigOperators

/-- The body's result at row `p` of the block: the read-out of the layer's formula of row `p` of the two staged blocks. -/
theorem body_at (x0 x1 : Vec Ideal S5000x128 .f32) (x2 : Vec Ideal S128x128 .bf16) (x3 : Vec Ideal S1x128 .f32)
    (x4 : Vec Ideal S128x128 .bf16) (x5 : Vec Ideal S1x128 .f32) (x6 : Vec Ideal S1x128 .f32) (x7 : Vec Ideal S1x1 .f32)
    (p : Fin 5000) (u : Fin 1) :
    out1_8 (F := Ideal) x0 x1 x2 x3 x4 x5 x6 x7 (ix2 p u)
      = Cert.Gin.headRow (fun k => Cert.Gin.mlpRow (fun l => x0 (ix2 p l)) (fun l => x1 (ix2 p l)) x2
          (fun k => x3 (ix2 (0 : Fin 1) k)) x4 (fun k => x5 (ix2 (0 : Fin 1) k)) k)
          (fun k => x6 (ix2 (0 : Fin 1) k)) (x7 (ix2 (0 : Fin 1) (0 : Fin 1))) := by
  unfold out1_8
  rw [View.canon_unit_zero hz]
  simp only [View.ld_unit_zero (S := S5000x128) hz, View.ld_unit_zero (S := S128x128) hz, View.ld_unit_zero (S := S1x128) hz,
    View.ld_unit_zero (S := S1x1) hz]
  unfold k1_pay1
  simp only [shapeCast_self]
  refine (Cert.LibDenseRelu.vectorReadout_apply (n := 5000) (K := 128) (twoDense x0 x1 x2 x3 x4 x5) x6 x7
    broadcasts_S1x128_S5000x128 broadcasts_S1x1_S5000x1 reduces_S5000x128_S5000 (.inl rfl) rfl shapeCasts_S5000_S5000x1 p u).trans ?_
  unfold Cert.Gin.headRow
  refine congrArg (· + x7 (ix2 (0 : Fin 1) (0 : Fin 1))) (Finset.sum_congr rfl fun k _ => ?_)
  rw [twoDense_at]

/-- The index maps over the ten points: the two row-banded operands and the output sit at block `(t, 0)`, the six
    operands staged whole at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- One entry of a written-back block: if row `j 0` of the two staged blocks is row `i 0` of the arrays `A0`, `A1` and the
    six other staged operands are the arrays `A2 … A7` whole, the body's result at `j` is the layer with its read-out of the
    arrays at `i`. -/
theorem point (A0 A1 : S50000x128.Idx → EReal) (A2 A4 : S128x128.Idx → EReal) (A3 A5 A6 : S1x128.Idx → EReal) (A7 : S1x1.Idx → EReal)
    (B0 B1 : Vec Ideal S5000x128 .f32) (B2 B4 : Vec Ideal S128x128 .bf16) (B3 B5 B6 : Vec Ideal S1x128 .f32) (B7 : Vec Ideal S1x1 .f32)
    (j : S5000x1.Idx) (i : S50000x1.Idx)
    (h0 : ∀ l : Fin 128, B0 (ix2 (j 0) l) = A0 (ix2 (i 0) l))
    (h1 : ∀ l : Fin 128, B1 (ix2 (j 0) l) = A1 (ix2 (i 0) l))
    (h2 : ∀ y, B2 y = A2 y) (h3 : ∀ y, B3 y = A3 y) (h4 : ∀ y, B4 y = A4 y) (h5 : ∀ y, B5 y = A5 y)
    (h6 : ∀ y, B6 y = A6 y) (h7 : ∀ y, B7 y = A7 y) :
    out1_8 (F := Ideal) B0 B1 B2 B3 B4 B5 B6 B7 j
      = Cert.Gin.headOf A0 A1 A2 (fun k => A3 (ix2 (0 : Fin 1) k)) A4 (fun k => A5 (ix2 (0 : Fin 1) k))
          (fun k => A6 (ix2 (0 : Fin 1) k)) (A7 (ix2 (0 : Fin 1) (0 : Fin 1))) i := by
  obtain rfl : B2 = A2 := funext h2
  obtain rfl : B3 = A3 := funext h3
  obtain rfl : B4 = A4 := funext h4
  obtain rfl : B5 = A5 := funext h5
  obtain rfl : B6 = A6 := funext h6
  obtain rfl : B7 = A7 := funext h7
  obtain ⟨p, u, rfl⟩ : ∃ (p : Fin 5000) (u : Fin 1), j = ix2 p u := ⟨j 0, j 1, eq_ix2 j⟩
  obtain ⟨r, s, rfl⟩ : ∃ (r : Fin 50000) (s : Fin 1), i = ix2 r s := ⟨i 0, i 1, eq_ix2 i⟩
  have h0' : (fun l : Fin 128 => B0 (ix2 p l)) = fun l => A0 (ix2 r l) := funext h0
  have h1' : (fun l : Fin 128 => B1 (ix2 p l)) = fun l => A1 (ix2 r l) := funext h1
  rw [body_at, Cert.Gin.headOf_ix2, h0', h1']

variable (V : (c : Dev nD) → (b : Ref sig .tc) → Buf (Elt Ideal) ((c : Thread nD τ).loc b))

/-- What point `t` writes back is the band of rows `5000·t …` of the layer with its read-out of the arrays as the region
    finds them. -/
theorem flushed_eq (c : Dev nD) (t : Fin cfg1.N) :
    (dat1 V c).flushed 8 t = ((cfg1.win 8).blk t).view.read (Elt Ideal)
      (Cert.Gin.headOf (n := 50000) (V c main_v20) (V c main_v32) (V c main_v33) (fun k => V c main_v35 (ix2 (0 : Fin 1) k))
        (V c main_v34) (fun k => V c main_v36 (ix2 (0 : Fin 1) k)) (fun k => V c main_v37 (ix2 (0 : Fin 1) k))
        (V c main_v38 (ix2 (0 : Fin 1) (0 : Fin 1)))) := by
  show (cfg1.win 8).cut (grid1.coords t) ((dat1 V c).after 8 t) = _
  rw [after1_8]
  obtain ⟨e00, e01, e10, e11, e20, e21, e30, e31, e40, e41, e50, e51, e60, e61, e70, e71, e80, e81⟩ := idx_facts t
  funext j
  refine point (V c main_v20) (V c main_v32) (V c main_v33) (V c main_v34) (V c main_v35) (V c main_v36) (V c main_v37) (V c main_v38)
    (iblk1 V c 0 t) (iblk1 V c 1 t) (iblk1 V c 2 t) (iblk1 V c 4 t) (iblk1 V c 3 t) (iblk1 V c 5 t) (iblk1 V c 6 t) (iblk1 V c 7 t)
    j (((cfg1.win 8).blk t).view.emb j) ?_ ?_ ?_ ?_ ?_ ?_ ?_ ?_
  · intro l
    show V c main_v20 (((cfg1.win 0).blk t).view.emb (ix2 (j 0) l)) = V c main_v20 (ix2 ((((cfg1.win 8).blk t).view.emb j) 0) l)
    refine congrArg (V c main_v20) (funext fun a => Fin.ext ?_)
    match a with
    | ⟨0, _⟩ => show win1_0.index t (0 : Fin 2) * 5000 + 1 * (j 0).val = win1_8.index t (0 : Fin 2) * 5000 + 1 * (j 0).val; omega
    | ⟨1, _⟩ => show win1_0.index t (1 : Fin 2) * 128 + 1 * l.val = l.val; omega
  · intro l
    show V c main_v32 (((cfg1.win 1).blk t).view.emb (ix2 (j 0) l)) = V c main_v32 (ix2 ((((cfg1.win 8).blk t).view.emb j) 0) l)
    refine congrArg (V c main_v32) (funext fun a => Fin.ext ?_)
    match a with
    | ⟨0, _⟩ => show win1_1.index t (0 : Fin 2) * 5000 + 1 * (j 0).val = win1_8.index t (0 : Fin 2) * 5000 + 1 * (j 0).val; omega
    | ⟨1, _⟩ => show win1_1.index t (1 : Fin 2) * 128 + 1 * l.val = l.val; omega
  · intro y
    show V c main_v33 (((cfg1.win 2).blk t).view.emb y) = V c main_v33 y
    refine congrArg (V c main_v33) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · intro y
    show V c main_v35 (((cfg1.win 3).blk t).view.emb y) = V c main_v35 y
    refine congrArg (V c main_v35) (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  · intro y
    show V c main_v34 (((cfg1.win 4).blk t).view.emb y) = V c main_v34 y
    refine congrArg (V c main_v34) (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  · intro y
    show V c main_v36 (((cfg1.win 5).blk t).view.emb y) = V c main_v36 y
    refine congrArg (V c main_v36) (funext fun a => Fin.ext ?_)
    match a with
    | ⟨0, _⟩ => show win1_5.index t (0 : Fin 2) * 1 + 1 * (y 0).val = (y 0).val; omega
    | ⟨1, _⟩ => show win1_5.index t (1 : Fin 2) * 128 + 1 * (y 1).val = (y 1).val; omega
  · intro y
    show V c main_v37 (((cfg1.win 6).blk t).view.emb y) = V c main_v37 y
    refine congrArg (V c main_v37) (funext fun a => Fin.ext ?_)
    match a with
    | ⟨0, _⟩ => show win1_6.index t (0 : Fin 2) * 1 + 1 * (y 0).val = (y 0).val; omega
    | ⟨1, _⟩ => show win1_6.index t (1 : Fin 2) * 128 + 1 * (y 1).val = (y 1).val; omega
  · intro y
    show V c main_v38 (((cfg1.win 7).blk t).view.emb y) = V c main_v38 y
    refine congrArg (V c main_v38) (funext fun a => Fin.ext ?_)
    match a with
    | ⟨0, _⟩ => show win1_7.index t (0 : Fin 2) * 1 + 1 * (y 0).val = (y 0).val; omega
    | ⟨1, _⟩ => show win1_7.index t (1 : Fin 2) * 1 + 1 * (y 1).val = (y 1).val; omega

/-- An index of the output array is in point `t`'s block iff each coordinate is in the block's range on its axis. -/
theorem mem_blk (t : Fin cfg1.N) (i : S50000x1.Idx) :
    i ∈ ((cfg1.win 8).blk t).view.set ↔ ∀ a : Fin 2, win1_8.index t a * S5000x1.size a ≤ (i a).val
      ∧ (i a).val < win1_8.index t a * S5000x1.size a + S5000x1.size a := by
  show i ∈ ((View.whole main_v39).slice (win1_8.rect t)).set ↔ _
  rw [View.set_slice_whole, Rect.mem_set_unit]
  exact Iff.rfl

/-- Every row of the output array lies in the band of the point `row / 5000`. -/
theorem covered (i : S50000x1.Idx) :
    ∃ t : Fin cfg1.N, (cfg1.win 8).flush t = true ∧ i ∈ ((cfg1.win 8).blk t).view.set := by
  have hi0 : (i 0).val < 50000 := (i 0).isLt
  have hi1 : (i 1).val < 1 := (i 1).isLt
  have hN : grid1.N = 10 := N_1
  have ht : (i 0).val / 5000 < cfg1.N := by show (i 0).val / 5000 < grid1.N; omega
  obtain ⟨e00, e01, e10, e11, e20, e21, e30, e31, e40, e41, e50, e51, e60, e61, e70, e71, e80, e81⟩ := idx_facts ⟨(i 0).val / 5000, ht⟩
  refine ⟨⟨(i 0).val / 5000, ht⟩, flush1_8 _, ?_⟩
  rw [mem_blk]
  intro a
  match a with
  | ⟨0, _⟩ =>
    show win1_8.index ⟨(i 0).val / 5000, ht⟩ (0 : Fin 2) * 5000 ≤ (i 0).val
      ∧ (i 0).val < win1_8.index ⟨(i 0).val / 5000, ht⟩ (0 : Fin 2) * 5000 + 5000
    have e : win1_8.index ⟨(i 0).val / 5000, ht⟩ (0 : Fin 2) = (i 0).val / 5000 := e80
    omega
  | ⟨1, _⟩ =>
    show win1_8.index ⟨(i 0).val / 5000, ht⟩ (1 : Fin 2) * 1 ≤ (i 1).val
      ∧ (i 1).val < win1_8.index ⟨(i 0).val / 5000, ht⟩ (1 : Fin 2) * 1 + 1
    omega

/-- The output array after the region: the layer with its read-out of the arrays the region was entered with. -/
theorem array_eq (c : Dev nD) :
    (dat1 V c).arrAt 8 cfg1.N
      = Cert.Gin.headOf (n := 50000) (V c main_v20) (V c main_v32) (V c main_v33) (fun k => V c main_v35 (ix2 (0 : Fin 1) k))
          (V c main_v34) (fun k => V c main_v36 (ix2 (0 : Fin 1) k)) (fun k => V c main_v37 (ix2 (0 : Fin 1) k))
          (V c main_v38 (ix2 (0 : Fin 1) (0 : Fin 1))) :=
  (dat1 V c).arrAt_eq_of_cover 8 _ (fun t _ => flushed_eq V c t) covered

end Cert.KernelIdeal.Layer1

end
-- ==== Proof.HostTerms.lean ====
/-
  The host's part of the network as the kernel's program spells it, named once.

  `srcRaw` / `dstRaw`: the two rows of the edge list as vectors. `aggOf s d X`: the neighbour sum — each edge's source index
  wrapped by the node count when negative, its row of `X` gathered (through the narrow format, which is the identity on the
  extended reals) and added into row `d e` of a zero array.
-/
import proofs.«151504_j37744172597911_2_alg».proof.Proof.Gen.KernelIdeal.Frame
import Idealize.ShloMosaic.PureOps.Ideal.Laws

noncomputable section

namespace Cert.KernelIdeal.Net

open Cert.KernelIdeal Cert.KernelIdeal.Gen Idealize.ShloMosaic

/-- The edges' source endpoints: row 0 of the edge list. -/
def srcRaw (ei : (⟨S2x800000, .i32⟩ : BufTy).Contents (Elt Ideal)) : (⟨S800000, .i32⟩ : BufTy).Contents (Elt Ideal) :=
  shapeCast S800000 (extractStridedSlice S1x800000 ![0, 0] ei slices_S2x800000_S1x800000_0_0) shapeCasts_S1x800000_S800000

/-- The edges' destination endpoints: row 1 of the edge list. -/
def dstRaw (ei : (⟨S2x800000, .i32⟩ : BufTy).Contents (Elt Ideal)) : (⟨S800000, .i32⟩ : BufTy).Contents (Elt Ideal) :=
  shapeCast S800000 (extractStridedSlice S1x800000 ![1, 0] ei slices_S2x800000_S1x800000_1_0) shapeCasts_S1x800000_S800000

/-- The neighbour sum of the rows of `X` over the edges `s e → d e`. -/
def aggOf (s d : (⟨S800000, .i32⟩ : BufTy).Contents (Elt Ideal)) (X : FVec Ideal S50000x128 .f32) : FVec Ideal S50000x128 .f32 :=
  Host.scatterAdd (F := Ideal) scatter_S50000x128_S800000x1_S800000x128_1_0_0_1
    (broadcastInDim S50000x128 ![] bcast_S_S50000x128 (constant (F := Ideal) S_ FTy.f32 0#32))
    (broadcastInDim S800000x1 ![0] bcast_S800000_S800000x1_0 d)
    (extf FTy.f32
      (Host.gather gather_S50000x128_S800000x1_S800000x128_1_0_n_n_0_1_1128 (truncf FTy.bf16 X bitsLt_bf16_f32)
        (broadcastInDim S800000x1 ![0] bcast_S800000_S800000x1_0
          (select (cmpi CmpIPredicate.slt s (broadcastInDim S800000 ![] bcast_S_S800000 (constantI S_ 32 0#32)))
            (addi s (broadcastInDim S800000 ![] bcast_S_S800000 (constantI S_ 32 50000#32))) s)))
      bitsLt_bf16_f32)

end Cert.KernelIdeal.Net

end
-- ==== Proof.Entry0.lean ====
/-
  The first layer's region is entered with: the features as launched; the neighbour sum of the features over the edge list;
  the two weight matrices (their narrowing is the identity on the extended reals); the two biases laid as rows.
  Each is the first host stretch read at one buffer from the launch memory.
-/
import proofs.«151504_j37744172597911_2_alg».proof.Proof.Gen.KernelIdeal.Frame
import proofs.«151504_j37744172597911_2_alg».proof.Proof.HostTerms
import Idealize.ShloMosaic.Lib.StableHlo.Run

set_option maxRecDepth 16384

noncomputable section

namespace Cert.KernelIdeal.Net

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The features: untouched by the host stretch. -/
theorem V1_arg0 (c : Dev nD) : (V1 m ρ c main_arg0 : S50000x128.Idx → EReal) = m ((c : Thread nD τ).loc main_arg0) := by
  show StableHlo.after hostOps0 (W0 m ρ c) (Proc.devRef .tc main_arg0) = _
  after_results <;> rfl

set_option maxHeartbeats 1600000 in
/-- The neighbour sum of the features. -/
theorem V1_v15 (c : Dev nD) : (V1 m ρ c main_v15 : S50000x128.Idx → EReal) = aggOf (srcRaw (m ((c : Thread nD τ).loc main_arg1))) (dstRaw (m ((c : Thread nD τ).loc main_arg1))) (m ((c : Thread nD τ).loc main_arg0)) := by
  show StableHlo.after hostOps0 (W0 m ρ c) (Proc.devRef .tc main_v15) = _
  after_results_simp <;> rfl

/-- The first unit's weights. -/
theorem V1_v16 (c : Dev nD) : (V1 m ρ c main_v16 : S128x128.Idx → EReal) = m ((c : Thread nD τ).loc main_arg2) := by
  show StableHlo.after hostOps0 (W0 m ρ c) (Proc.devRef .tc main_v16) = _
  after_results <;> rfl

/-- The second unit's weights. -/
theorem V1_v17 (c : Dev nD) : (V1 m ρ c main_v17 : S128x128.Idx → EReal) = m ((c : Thread nD τ).loc main_arg4) := by
  show StableHlo.after hostOps0 (W0 m ρ c) (Proc.devRef .tc main_v17) = _
  after_results <;> rfl

/-- The first unit's bias as a row. -/
theorem V1_v18 (c : Dev nD) : (V1 m ρ c main_v18 : S1x128.Idx → EReal) = shapeCast S1x128 (m ((c : Thread nD τ).loc main_arg3)) shapeCasts_S128_S1x128 := by
  show StableHlo.after hostOps0 (W0 m ρ c) (Proc.devRef .tc main_v18) = _
  after_results <;> rfl

/-- The second unit's bias as a row. -/
theorem V1_v19 (c : Dev nD) : (V1 m ρ c main_v19 : S1x128.Idx → EReal) = shapeCast S1x128 (m ((c : Thread nD τ).loc main_arg5)) shapeCasts_S128_S1x128 := by
  show StableHlo.after hostOps0 (W0 m ρ c) (Proc.devRef .tc main_v19) = _
  after_results <;> rfl

end Cert.KernelIdeal.Net

end
-- ==== Proof.Between.lean ====
/-
  What the first region leaves behind, at the buffers the second host stretch reads besides the region's own result: the
  two endpoint vectors the first stretch computed, and the arguments of the second layer and of the read-out, which nothing
  has written. The region changes none of them (they are not among its arrays), so each is the first host stretch read from
  the launch memory.
-/
import proofs.«151504_j37744172597911_2_alg».proof.Proof.Gen.KernelIdeal.Frame
import proofs.«151504_j37744172597911_2_alg».proof.Proof.HostTerms
import Idealize.ShloMosaic.Lib.StableHlo.Run

set_option maxRecDepth 16384

noncomputable section

namespace Cert.KernelIdeal.Net

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The source endpoints. -/
theorem W2_v1 (c : Dev nD) : (W2 m ρ c (Proc.devRef .tc main_v1) : S800000.Idx → BitVec 32) = srcRaw (m ((c : Thread nD τ).loc main_arg1)) := by
  rw [W2_of_ne m ρ c main_v1 (by decide)]
  show StableHlo.after hostOps0 (W0 m ρ c) (Proc.devRef .tc main_v1) = _
  after_results <;> rfl

/-- The destination endpoints. -/
theorem W2_v3 (c : Dev nD) : (W2 m ρ c (Proc.devRef .tc main_v3) : S800000.Idx → BitVec 32) = dstRaw (m ((c : Thread nD τ).loc main_arg1)) := by
  rw [W2_of_ne m ρ c main_v3 (by decide)]
  show StableHlo.after hostOps0 (W0 m ρ c) (Proc.devRef .tc main_v3) = _
  after_results <;> rfl

/-- The second layer's first weights. -/
theorem W2_arg6 (c : Dev nD) : (W2 m ρ c (Proc.devRef .tc main_arg6) : S128x128.Idx → EReal) = m ((c : Thread nD τ).loc main_arg6) := by
  rw [W2_of_ne m ρ c main_arg6 (by decide)]
  show StableHlo.after hostOps0 (W0 m ρ c) (Proc.devRef .tc main_arg6) = _
  after_results <;> rfl

/-- The second layer's first bias. -/
theorem W2_arg7 (c : Dev nD) : (W2 m ρ c (Proc.devRef .tc main_arg7) : S128.Idx → EReal) = m ((c : Thread nD τ).loc main_arg7) := by
  rw [W2_of_ne m ρ c main_arg7 (by decide)]
  show StableHlo.after hostOps0 (W0 m ρ c) (Proc.devRef .tc main_arg7) = _
  after_results <;> rfl

/-- The second layer's second weights. -/
theorem W2_arg8 (c : Dev nD) : (W2 m ρ c (Proc.devRef .tc main_arg8) : S128x128.Idx → EReal) = m ((c : Thread nD τ).loc main_arg8) := by
  rw [W2_of_ne m ρ c main_arg8 (by decide)]
  show StableHlo.after hostOps0 (W0 m ρ c) (Proc.devRef .tc main_arg8) = _
  after_results <;> rfl

/-- The second layer's second bias. -/
theorem W2_arg9 (c : Dev nD) : (W2 m ρ c (Proc.devRef .tc main_arg9) : S128.Idx → EReal) = m ((c : Thread nD τ).loc main_arg9) := by
  rw [W2_of_ne m ρ c main_arg9 (by decide)]
  show StableHlo.after hostOps0 (W0 m ρ c) (Proc.devRef .tc main_arg9) = _
  after_results <;> rfl

/-- The read-out's weights. -/
theorem W2_arg10 (c : Dev nD) : (W2 m ρ c (Proc.devRef .tc main_arg10) : S128x1.Idx → EReal) = m ((c : Thread nD τ).loc main_arg10) := by
  rw [W2_of_ne m ρ c main_arg10 (by decide)]
  show StableHlo.after hostOps0 (W0 m ρ c) (Proc.devRef .tc main_arg10) = _
  after_results <;> rfl

/-- The read-out's offset. -/
theorem W2_arg11 (c : Dev nD) : (W2 m ρ c (Proc.devRef .tc main_arg11) : S1.Idx → EReal) = m ((c : Thread nD τ).loc main_arg11) := by
  rw [W2_of_ne m ρ c main_arg11 (by decide)]
  show StableHlo.after hostOps0 (W0 m ρ c) (Proc.devRef .tc main_arg11) = _
  after_results <;> rfl

end Cert.KernelIdeal.Net

end
-- ==== Proof.Entry1.lean ====
/-
  The second layer's region is entered with: the first layer's result; its neighbour sum over the same edges; the second
  layer's weights and bias rows; the read-out's weights as a row and its offset as a 1×1 array — each the second host
  stretch read at one buffer from what the first region left.
-/
import proofs.«151504_j37744172597911_2_alg».proof.Proof.Gen.KernelIdeal.Frame
import proofs.«151504_j37744172597911_2_alg».proof.Proof.HostTerms
import Idealize.ShloMosaic.Lib.StableHlo.Run

set_option maxRecDepth 16384

noncomputable section

namespace Cert.KernelIdeal.Net

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The first layer's result: untouched by the host stretch. -/
theorem V3_v20 (c : Dev nD) : (V3 m ρ c main_v20 : S50000x128.Idx → EReal) = W2 m ρ c (Proc.devRef .tc main_v20) := by
  show StableHlo.after hostOps1 (W2 m ρ c) (Proc.devRef .tc main_v20) = _
  after_results <;> rfl

/-- The neighbour sum of the first layer's result. -/
theorem V3_v32 (c : Dev nD) : (V3 m ρ c main_v32 : S50000x128.Idx → EReal) = aggOf (W2 m ρ c (Proc.devRef .tc main_v1)) (W2 m ρ c (Proc.devRef .tc main_v3)) (W2 m ρ c (Proc.devRef .tc main_v20)) := by
  show StableHlo.after hostOps1 (W2 m ρ c) (Proc.devRef .tc main_v32) = _
  after_results <;> rfl

/-- The first unit's weights. -/
theorem V3_v33 (c : Dev nD) : (V3 m ρ c main_v33 : S128x128.Idx → EReal) = W2 m ρ c (Proc.devRef .tc main_arg6) := by
  show StableHlo.after hostOps1 (W2 m ρ c) (Proc.devRef .tc main_v33) = _
  after_results <;> rfl

/-- The second unit's weights. -/
theorem V3_v34 (c : Dev nD) : (V3 m ρ c main_v34 : S128x128.Idx → EReal) = W2 m ρ c (Proc.devRef .tc main_arg8) := by
  show StableHlo.after hostOps1 (W2 m ρ c) (Proc.devRef .tc main_v34) = _
  after_results <;> rfl

/-- The first unit's bias as a row. -/
theorem V3_v35 (c : Dev nD) : (V3 m ρ c main_v35 : S1x128.Idx → EReal) = shapeCast S1x128 (W2 m ρ c (Proc.devRef .tc main_arg7)) shapeCasts_S128_S1x128 := by
  show StableHlo.after hostOps1 (W2 m ρ c) (Proc.devRef .tc main_v35) = _
  after_results <;> rfl

/-- The second unit's bias as a row. -/
theorem V3_v36 (c : Dev nD) : (V3 m ρ c main_v36 : S1x128.Idx → EReal) = shapeCast S1x128 (W2 m ρ c (Proc.devRef .tc main_arg9)) shapeCasts_S128_S1x128 := by
  show StableHlo.after hostOps1 (W2 m ρ c) (Proc.devRef .tc main_v36) = _
  after_results <;> rfl

/-- The read-out's weights as a row. -/
theorem V3_v37 (c : Dev nD) : (V3 m ρ c main_v37 : S1x128.Idx → EReal) = shapeCast S1x128 (W2 m ρ c (Proc.devRef .tc main_arg10)) shapeCasts_S128x1_S1x128 := by
  show StableHlo.after hostOps1 (W2 m ρ c) (Proc.devRef .tc main_v37) = _
  after_results <;> rfl

/-- The read-out's offset as a 1×1 array. -/
theorem V3_v38 (c : Dev nD) : (V3 m ρ c main_v38 : S1x1.Idx → EReal) = shapeCast S1x1 (W2 m ρ c (Proc.devRef .tc main_arg11)) shapeCasts_S1_S1x1 := by
  show StableHlo.after hostOps1 (W2 m ρ c) (Proc.devRef .tc main_v38) = _
  after_results <;> rfl

end Cert.KernelIdeal.Net

end
-- ==== Proof.Net.lean ====
/-
  The kernel program's result as the network of the specification.

  The second region's output array is the layer with its read-out of the arrays that region is entered with
  (`Layer1.array_eq`); those are the first region's output — the layer of the arrays the first region is entered with
  (`Layer0.array_eq`) —, its neighbour sum, and the second layer's parameters; the first region is entered with the features,
  their neighbour sum and the first layer's parameters. A bias reaches its kernel as a one-row array (`biasRow`), the
  read-out's one-column weights as one row (`weightRow`) and its offset as a 1×1 array (`offsetAt`): the same numbers by
  position. Substituting, the result is `Gin.gin` over the kernel's neighbour sum (`kernel_value`).
-/
import proofs.«151504_j37744172597911_2_alg».proof.Proof.Layer0
import proofs.«151504_j37744172597911_2_alg».proof.Proof.Layer1
import proofs.«151504_j37744172597911_2_alg».proof.Proof.Entry0
import proofs.«151504_j37744172597911_2_alg».proof.Proof.Between
import proofs.«151504_j37744172597911_2_alg».proof.Proof.Entry1
import Idealize.ShloMosaic.Lib.ValueLayout

set_option maxRecDepth 16384

noncomputable section

namespace Cert.KernelIdeal.Net

open Cert.KernelIdeal Cert.KernelIdeal.Gen Idealize.ShloMosaic Idealize.ShloMosaic.TcCoe Idealize.ShloMosaic.ValueIdx Idealize.SL.Sem

/-! ## Equal operands, equal layers -/

theorem layer_congr {n : ℕ} {X X' A A' : (⟨2, ![n, 128]⟩ : Shape).Idx → EReal} {W₁ W₁' W₂ W₂' : (⟨2, ![128, 128]⟩ : Shape).Idx → EReal}
    {b₁ b₁' b₂ b₂' : Fin 128 → EReal} (hX : X = X') (hA : A = A') (h1 : W₁ = W₁') (hb1 : b₁ = b₁') (h2 : W₂ = W₂') (hb2 : b₂ = b₂') :
    Cert.Gin.layer X A W₁ b₁ W₂ b₂ = Cert.Gin.layer X' A' W₁' b₁' W₂' b₂' := by
  subst hX hA h1 hb1 h2 hb2; rfl

theorem headOf_congr {n : ℕ} {X X' A A' : (⟨2, ![n, 128]⟩ : Shape).Idx → EReal} {W₁ W₁' W₂ W₂' : (⟨2, ![128, 128]⟩ : Shape).Idx → EReal}
    {b₁ b₁' b₂ b₂' w w' : Fin 128 → EReal} {c c' : EReal}
    (hX : X = X') (hA : A = A') (h1 : W₁ = W₁') (hb1 : b₁ = b₁') (h2 : W₂ = W₂') (hb2 : b₂ = b₂') (hw : w = w') (hc : c = c') :
    Cert.Gin.headOf X A W₁ b₁ W₂ b₂ w c = Cert.Gin.headOf X' A' W₁' b₁' W₂' b₂' w' c' := by
  subst hX hA h1 hb1 h2 hb2 hw hc; rfl

theorem aggOf_congr {s s' d d' : (⟨S800000, .i32⟩ : BufTy).Contents (Elt Ideal)} {X X' : FVec Ideal S50000x128 .f32}
    (hs : s = s') (hd : d = d') (hX : X = X') : aggOf s d X = aggOf s' d' X' := by
  subst hs hd hX; rfl

/-! ## Parameters re-laid for the kernels -/

/-- A bias vector laid as a one-row array: entry `(0, k)` is entry `k`. -/
theorem biasRow {B : S1x128.Idx → EReal} {b : S128.Idx → EReal} (h : B = shapeCast S1x128 b shapeCasts_S128_S1x128) :
    (fun k : Fin 128 => B (ix2 (0 : Fin 1) k)) = fun k => b (ix1 k) := by
  subst h
  funext k
  exact shapeCast_a_1a_apply b shapeCasts_S128_S1x128 0 k

/-- One-column weights laid as a one-row array: entry `(0, k)` is entry `(k, 0)`. -/
theorem weightRow {B : S1x128.Idx → EReal} {W : S128x1.Idx → EReal} (h : B = shapeCast S1x128 W shapeCasts_S128x1_S1x128) :
    (fun k : Fin 128 => B (ix2 (0 : Fin 1) k)) = fun k => W (ix2 k (0 : Fin 1)) := by
  subst h
  funext k
  refine shapeCast_apply W shapeCasts_S128x1_S1x128 (ix2 (0 : Fin 1) k) (ix2 k (0 : Fin 1)) ?_
  rw [Shape.rowMajor_val_two, Shape.rowMajor_val_two]
  show k.val * 1 + 0 = 0 * 128 + k.val
  omega

/-- A one-entry offset laid as a 1×1 array. -/
theorem offsetAt {B : S1x1.Idx → EReal} {b : S1.Idx → EReal} (h : B = shapeCast S1x1 b shapeCasts_S1_S1x1) :
    B (ix2 (0 : Fin 1) (0 : Fin 1)) = b (ix1 (0 : Fin 1)) := by
  subst h
  exact shapeCast_a_1a_apply b shapeCasts_S1_S1x1 0 0

variable (m : (ℓ : Loc nD τ sig) → Buf (Elt Ideal) ℓ) (ρ : Dev nD → PrngReg)

/-! ## The two regions' results -/

/-- What the first region leaves in its output array: the first layer of the features and their neighbour sum. -/
theorem layer0_value (c : Dev nD) :
    (W2 m ρ c (Proc.devRef .tc main_v20) : S50000x128.Idx → EReal)
      = Cert.Gin.layer (n := 50000) (m ((c : Thread nD τ).loc main_arg0))
          (aggOf (srcRaw (m ((c : Thread nD τ).loc main_arg1))) (dstRaw (m ((c : Thread nD τ).loc main_arg1))) (m ((c : Thread nD τ).loc main_arg0)))
          (m ((c : Thread nD τ).loc main_arg2)) (fun k => m ((c : Thread nD τ).loc main_arg3) (ix1 k))
          (m ((c : Thread nD τ).loc main_arg4)) (fun k => m ((c : Thread nD τ).loc main_arg5) (ix1 k)) :=
  ((W2_arr m ρ c 6).trans (Cert.KernelIdeal.Layer0.array_eq (V1 m ρ) c)).trans
    (layer_congr (V1_arg0 m ρ c) (V1_v15 m ρ c) (V1_v16 m ρ c) (biasRow (V1_v18 m ρ c)) (V1_v17 m ρ c) (biasRow (V1_v19 m ρ c)))

/-- What the program leaves in its result array: the network over the kernel's neighbour sum. -/
theorem kernel_value (c : Dev nD) :
    (W4 m ρ c (Proc.devRef .tc main_v39) : S50000x1.Idx → EReal)
      = Cert.Gin.gin (n := 50000) (aggOf (srcRaw (m ((c : Thread nD τ).loc main_arg1))) (dstRaw (m ((c : Thread nD τ).loc main_arg1)))) (m ((c : Thread nD τ).loc main_arg0))
          (m ((c : Thread nD τ).loc main_arg2)) (fun k => m ((c : Thread nD τ).loc main_arg3) (ix1 k))
          (m ((c : Thread nD τ).loc main_arg4)) (fun k => m ((c : Thread nD τ).loc main_arg5) (ix1 k))
          (m ((c : Thread nD τ).loc main_arg6)) (fun k => m ((c : Thread nD τ).loc main_arg7) (ix1 k))
          (m ((c : Thread nD τ).loc main_arg8)) (fun k => m ((c : Thread nD τ).loc main_arg9) (ix1 k))
          (fun k => m ((c : Thread nD τ).loc main_arg10) (ix2 k (0 : Fin 1))) (m ((c : Thread nD τ).loc main_arg11) (ix1 (0 : Fin 1))) :=
  ((W4_arr m ρ c 8).trans (Cert.KernelIdeal.Layer1.array_eq (V3 m ρ) c)).trans
    (headOf_congr ((V3_v20 m ρ c).trans (layer0_value m ρ c))
      ((V3_v32 m ρ c).trans (aggOf_congr (W2_v1 m ρ c) (W2_v3 m ρ c) (layer0_value m ρ c)))
      ((V3_v33 m ρ c).trans (W2_arg6 m ρ c))
      (biasRow ((V3_v35 m ρ c).trans (congrArg (fun b => shapeCast S1x128 b shapeCasts_S128_S1x128) (W2_arg7 m ρ c))))
      ((V3_v34 m ρ c).trans (W2_arg8 m ρ c))
      (biasRow ((V3_v36 m ρ c).trans (congrArg (fun b => shapeCast S1x128 b shapeCasts_S128_S1x128) (W2_arg9 m ρ c))))
      (weightRow ((V3_v37 m ρ c).trans (congrArg (fun b => shapeCast S1x128 b shapeCasts_S128x1_S1x128) (W2_arg10 m ρ c))))
      (offsetAt ((V3_v38 m ρ c).trans (congrArg (fun b => shapeCast S1x1 b shapeCasts_S1_S1x1) (W2_arg11 m ρ c)))))

end Cert.KernelIdeal.Net

end
-- ==== Proof.KernelRun.lean ====
/-
  The kernel program's run with its result: every weakly fair execution terminates, nothing faulting, with the result array
  at the network of the arguments and the arguments as launched.

  `run_all` is the run of @main's four segments — first host stretch, first region, second host stretch, second region —
  read at EVERY buffer the thread state holds at the end: each holds what the fold of the segments leaves there. The result
  array is then `Net.kernel_value`, and each argument is as launched (no segment writes one).
-/
import proofs.«151504_j37744172597911_2_alg».proof.Proof.Net

set_option maxRecDepth 16384

noncomputable section

namespace Cert.KernelIdeal.Net

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution of @main ends, and any property of the final memory that follows from "every buffer the thread holds is at
    the last boundary's contents" holds of it. -/
theorem run_all {Q : PUnit × MemSt nD τ sig (Elt Ideal) → Prop}
    (hQ : ∀ s : MemSt nD τ sig (Elt Ideal),
      (∀ c : Dev nD, ∀ b ∈ Pipeline.ucRefs τ sig, s.mem (((c : Thread nD τ)).1, b) = W4 m ρ c b) → Q (⟨⟩, s)) :
    θ_run defs (onTc (τ := τ) (main (F := Ideal))) ⟨m, fun _ => 0, ρ⟩ Q :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The kernel program's run: the result array ends at the network of the arguments, the arguments as launched. -/
theorem kernel_run : θ_run defs (onTc (τ := τ) (main (F := Ideal))) ⟨m, fun _ => 0, ρ⟩ (fun r => ∀ c : Dev nD,
      r.2.mem ((c.tc : Thread nD τ).loc main_v39) = Cert.Gin.gin (n := 50000) (aggOf (srcRaw (m ((c.tc : Thread nD τ).loc main_arg1))) (dstRaw (m ((c.tc : Thread nD τ).loc main_arg1)))) (m ((c.tc : Thread nD τ).loc main_arg0))
          (m ((c.tc : Thread nD τ).loc main_arg2)) (fun k => m ((c.tc : Thread nD τ).loc main_arg3) (ix1 k))
          (m ((c.tc : Thread nD τ).loc main_arg4)) (fun k => m ((c.tc : Thread nD τ).loc main_arg5) (ix1 k))
          (m ((c.tc : Thread nD τ).loc main_arg6)) (fun k => m ((c.tc : Thread nD τ).loc main_arg7) (ix1 k))
          (m ((c.tc : Thread nD τ).loc main_arg8)) (fun k => m ((c.tc : Thread nD τ).loc main_arg9) (ix1 k))
          (fun k => m ((c.tc : Thread nD τ).loc main_arg10) (ix2 k (0 : Fin 1))) (m ((c.tc : Thread nD τ).loc main_arg11) (ix1 (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_all m ρ (fun s h c =>
    ⟨(h c _ (mem_uc main_v39 (by decide))).trans (kernel_value m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c)⟩)

end Cert.KernelIdeal.Net

end
-- ==== Proof.RefNet.lean ====
/-
  The reference program's result as the network of the specification.

  Its neighbour sum `aggR` is the gather of the source rows (negative indices wrapped) added into the destination rows of a
  zero array. Each of its layers is two host products, each followed by the bias laid as a row and repeated down the rows
  and a maximum with zero: at `(p, q)` that is `Gin.mlpRow` of row `p` (`layer1_eq`, `layer2_eq`); its last product with the
  one-column read-out weights plus the offset is `Gin.headRow` (`out_eq`); together `Gin.gin aggR` of the arguments (`res_eq`).
-/
import proofs.«151504_j37744172597911_2_alg».proof.Proof.Gen.ReferenceIdeal.Run
import proofs.«151504_j37744172597911_2_alg».proof.Proof.Gen.ReferenceIdeal.Read
import proofs.«151504_j37744172597911_2_alg».proof.Proof.Spec
import proofs.«151504_j37744172597911_2_alg».proof.Proof.LibDenseRelu

set_option maxRecDepth 16384

noncomputable section

namespace Cert.ReferenceIdeal.Net

open Cert.ReferenceIdeal Cert.ReferenceIdeal.Gen Cert.ReferenceIdeal.Read Idealize.ShloMosaic Idealize.ShloMosaic.TcCoe
open Idealize.ShloMosaic.ValueIdx Idealize.SL.Sem
open scoped BigOperators

/-- The neighbour sum of the rows of `X` over the edge list `ei`, as the reference computes it. -/
def aggR (ei : (⟨S2x800000, .i32⟩ : BufTy).Contents (Elt Ideal)) (X : FVec Ideal S50000x128 .f32) : FVec Ideal S50000x128 .f32 :=
  Host.scatterAdd (F := Ideal) scatter_S50000x128_S800000x1_S800000x128_1_0_0_1 (val_main_v11 (F := Ideal)) (val_main_v12 (F := Ideal) ei)
    (Host.gather gather_S50000x128_S800000x1_S800000x128_1_0_n_n_0_1_1128 X (val_main_v9 (F := Ideal) ei))

theorem agg0 (x0 : (⟨S50000x128, .f32⟩ : BufTy).Contents (Elt Ideal)) (x1 : (⟨S2x800000, .i32⟩ : BufTy).Contents (Elt Ideal)) : val_main_v13 (F := Ideal) x0 x1 = aggR x1 x0 := rfl

theorem agg1 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v34 (F := Ideal) x0 x1 x2 x3 x4 x5 = aggR x1 (val_main_v24 (F := Ideal) x0 x1 x2 x3 x4 x5) := rfl

/-- The first layer's result is the layer of the features and their neighbour sum. -/
theorem layer1_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v24 (F := Ideal) x0 x1 x2 x3 x4 x5
      = Cert.Gin.layer (n := 50000) x0 (aggR x1 x0) x2 (fun k => x3 (ix1 k)) x4 (fun k => x5 (ix1 k)) := by
  funext i
  obtain ⟨p, q, rfl⟩ : ∃ (p : Fin 50000) (q : Fin 128), i = ix2 p q := ⟨i 0, i 1, eq_ix2 i⟩
  rw [Cert.Gin.layer_ix2]
  refine (Cert.LibDenseRelu.hostDense_apply (n := 50000) (K := 128) (N := 128) (φ₁ := .f32) (φ₂ := .f32)
    (val_main_v19 (F := Ideal) x0 x1 x2 x3) x4 x5 bcast_S128_S1x128_1 bcast_S1x128_S50000x128_0_1 bcast_S_S50000x128 p q).trans ?_
  unfold Cert.Gin.mlpRow
  refine congrArg (fun h => Cert.Gin.unit h x4 (fun k => x5 (ix1 k)) q) (funext fun k => ?_)
  exact Cert.LibDenseRelu.hostDense_apply (n := 50000) (K := 128) (N := 128) (φ₁ := .f32) (φ₂ := .f32)
    (addf x0 (val_main_v13 (F := Ideal) x0 x1)) x2 x3 bcast_S128_S1x128_1 bcast_S1x128_S50000x128_0_1 bcast_S_S50000x128 p k

/-- The second layer's result is the layer of the first layer's result and its neighbour sum. -/
theorem layer2_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v45 (F := Ideal) x0 x1 x2 x3 x4 x5 x6 x7 x8 x9
      = Cert.Gin.layer (n := 50000) (val_main_v24 (F := Ideal) x0 x1 x2 x3 x4 x5) (aggR x1 (val_main_v24 (F := Ideal) x0 x1 x2 x3 x4 x5))
          x6 (fun k => x7 (ix1 k)) x8 (fun k => x9 (ix1 k)) := by
  funext i
  obtain ⟨p, q, rfl⟩ : ∃ (p : Fin 50000) (q : Fin 128), i = ix2 p q := ⟨i 0, i 1, eq_ix2 i⟩
  rw [Cert.Gin.layer_ix2]
  refine (Cert.LibDenseRelu.hostDense_apply (n := 50000) (K := 128) (N := 128) (φ₁ := .f32) (φ₂ := .f32)
    (val_main_v40 (F := Ideal) x0 x1 x2 x3 x4 x5 x6 x7) x8 x9 bcast_S128_S1x128_1 bcast_S1x128_S50000x128_0_1 bcast_S_S50000x128 p q).trans ?_
  unfold Cert.Gin.mlpRow
  refine congrArg (fun h => Cert.Gin.unit h x8 (fun k => x9 (ix1 k)) q) (funext fun k => ?_)
  exact Cert.LibDenseRelu.hostDense_apply (n := 50000) (K := 128) (N := 128) (φ₁ := .f32) (φ₂ := .f32)
    (addf (val_main_v24 (F := Ideal) x0 x1 x2 x3 x4 x5) (val_main_v34 (F := Ideal) x0 x1 x2 x3 x4 x5)) x6 x7
    bcast_S128_S1x128_1 bcast_S1x128_S50000x128_0_1 bcast_S_S50000x128 p k

/-- The reference's result is the second layer with the read-out. -/
theorem out_eq (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x1, .f32⟩ : BufTy).Contents (Elt Ideal)) (x11 : (⟨S1, .f32⟩ : BufTy).Contents (Elt Ideal)) :
    val_main_v49 (F := Ideal) x0 x1 x2 x3 x4 x5 x6 x7 x8 x9 x10 x11
      = Cert.Gin.headOf (n := 50000) (val_main_v24 (F := Ideal) x0 x1 x2 x3 x4 x5) (aggR x1 (val_main_v24 (F := Ideal) x0 x1 x2 x3 x4 x5))
          x6 (fun k => x7 (ix1 k)) x8 (fun k => x9 (ix1 k)) (fun k => x10 (ix2 k (0 : Fin 1))) (x11 (ix1 (0 : Fin 1))) := by
  funext i
  obtain ⟨p, u, rfl⟩ : ∃ (p : Fin 50000) (u : Fin 1), i = ix2 p u := ⟨i 0, i 1, eq_ix2 i⟩
  obtain rfl : u = 0 := Subsingleton.elim _ _
  rw [Cert.Gin.headOf_ix2]
  refine (Cert.LibDenseRelu.hostReadout_apply (n := 50000) (K := 128) (val_main_v45 (F := Ideal) x0 x1 x2 x3 x4 x5 x6 x7 x8 x9) x10 x11
    bcast_S1_S1x1_1 bcast_S1x1_S50000x1_0_1 p 0).trans ?_
  unfold Cert.Gin.headRow
  refine congrArg (· + x11 (ix1 (0 : Fin 1))) (Finset.sum_congr rfl fun k _ => ?_)
  rw [layer2_eq]
  rfl

/-- The reference run's result term is the network of its arguments. -/
theorem res_eq (m : (ℓ : Loc nD τ sig) → Buf (Elt Ideal) ℓ) (c : Dev nD) :
    (Cert.ReferenceIdeal.Value.res_main_v49 m c : S50000x1.Idx → EReal)
      = Cert.Gin.gin (n := 50000) (aggR (m ((c : Thread nD τ).loc main_arg1))) (m ((c : Thread nD τ).loc main_arg0))
          (m ((c : Thread nD τ).loc main_arg2)) (fun k => m ((c : Thread nD τ).loc main_arg3) (ix1 k))
          (m ((c : Thread nD τ).loc main_arg4)) (fun k => m ((c : Thread nD τ).loc main_arg5) (ix1 k))
          (m ((c : Thread nD τ).loc main_arg6)) (fun k => m ((c : Thread nD τ).loc main_arg7) (ix1 k))
          (m ((c : Thread nD τ).loc main_arg8)) (fun k => m ((c : Thread nD τ).loc main_arg9) (ix1 k))
          (fun k => m ((c : Thread nD τ).loc main_arg10) (ix2 k (0 : Fin 1))) (m ((c : Thread nD τ).loc main_arg11) (ix1 (0 : Fin 1))) := by
  rw [val_main_v49_eq, out_eq, layer1_eq]
  rfl

end Cert.ReferenceIdeal.Net

end
-- ==== Proof.Claims.lean ====
/-
  The five claims.

  The three frames are the generated runs. Nothing was rewritten on the way to the idealized kernel, so `preserves` asks
  nothing. For `algebraic`: the kernel program's result is the network over its neighbour sum (`Net.kernel_run`), the
  reference's is the network over its own (`Net.res_eq`), of arguments that agree; and the two neighbour sums are one
  function (`agg_eq`): the same gather of source rows, negative indices wrapped by the node count, added into the same
  destination rows of a zero array — the kernel's passage through the narrow float format being the identity on the
  extended reals. No law beyond that is used, so the finiteness of the inputs is never opened.
-/
import proofs.«151504_j37744172597911_2_alg».proof.Defs
import proofs.«151504_j37744172597911_2_alg».proof.Proof.Gen.Kernel.Frame
import proofs.«151504_j37744172597911_2_alg».proof.Proof.Gen.Pre_finite_inputs
import proofs.«151504_j37744172597911_2_alg».proof.Proof.KernelRun
import proofs.«151504_j37744172597911_2_alg».proof.Proof.RefNet

set_option maxRecDepth 16384

noncomputable section

namespace Cert.Proof.Claims

open Idealize.ShloMosaic Idealize.ShloMosaic.TcCoe Idealize.SL.Sem Idealize.ShloMosaic.ValueIdx

/-- The reference's neighbour sum is the kernel's. -/
theorem agg_eq (ei : (⟨Cert.ReferenceIdeal.S2x800000, .i32⟩ : BufTy).Contents (Elt Ideal)) (X : FVec Ideal Cert.ReferenceIdeal.S50000x128 .f32) :
    Cert.ReferenceIdeal.Net.aggR ei X = Cert.KernelIdeal.Net.aggOf (Cert.KernelIdeal.Net.srcRaw ei) (Cert.KernelIdeal.Net.dstRaw ei) X := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the network of the arguments in their result arrays. -/
theorem algebraic : Cert.algebraic_KernelIdeal_ReferenceIdeal := by
  intro m ρ m' ρ' _ hagree
  refine ⟨_, Cert.KernelIdeal.Net.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Net.res_eq, a0, a1, a2, a3, a4, a5, a6, a7, a8, a9, a10, a11]
  exact congrArg (fun ag => Cert.Gin.gin (n := 50000) ag _ _ _ _ _ _ _ _ _ _ _) (funext fun X => agg_eq _ X)

end Cert.Proof.Claims

end
-- ==== Proof.lean ====
/- The proof of `Cert.Claim`: a two-layer graph isomorphism network with a linear read-out, computed by two fused
   kernels (one per layer, ten bands of 5000 nodes each) around a host-side gather and scatter-add, against the same network
   written with whole-array products. Proof/Spec.lean states the network on the extended reals; Proof/Layer0.lean and
   Proof/Layer1.lean read each kernel's output array as a layer of the arrays it is entered with; Proof/Entry0.lean,
   Proof/Between.lean and Proof/Entry1.lean read those arrays off the host operations; Proof/Net.lean and Proof/KernelRun.lean
   put the kernel program's run together; Proof/RefNet.lean reads the reference; Proof/Claims.lean joins the two. -/
import proofs.«151504_j37744172597911_2_alg».proof.Defs
import proofs.«151504_j37744172597911_2_alg».proof.Proof.Gen.Kernel
import proofs.«151504_j37744172597911_2_alg».proof.Proof.Gen.Kernel.Skeleton
import proofs.«151504_j37744172597911_2_alg».proof.Proof.Gen.Kernel.Launch
import proofs.«151504_j37744172597911_2_alg».proof.Proof.Gen.Kernel.Points
import proofs.«151504_j37744172597911_2_alg».proof.Proof.Gen.Kernel.Frame
import proofs.«151504_j37744172597911_2_alg».proof.Proof.Gen.KernelIdeal
import proofs.«151504_j37744172597911_2_alg».proof.Proof.Gen.KernelIdeal.Skeleton
import proofs.«151504_j37744172597911_2_alg».proof.Proof.Gen.KernelIdeal.Launch
import proofs.«151504_j37744172597911_2_alg».proof.Proof.Gen.KernelIdeal.Points
import proofs.«151504_j37744172597911_2_alg».proof.Proof.Gen.KernelIdeal.Frame
import proofs.«151504_j37744172597911_2_alg».proof.Proof.Gen.ReferenceIdeal
import proofs.«151504_j37744172597911_2_alg».proof.Proof.Gen.Pre_finite_inputs
import proofs.«151504_j37744172597911_2_alg».proof.Proof.Gen.ReferenceIdeal.Run
import proofs.«151504_j37744172597911_2_alg».proof.Proof.Gen.ReferenceIdeal.Read
import proofs.«151504_j37744172597911_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
